-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x128 : Shape := ⟨3, ![32, 1024, 128]⟩
abbrev S_ : Shape := ⟨0, ![]⟩

class Facts : Prop where
  bcast_S_S32x1024x128 : S_.BroadcastsInDim S32x1024x128 (![] : Fin 0 → Fin S32x1024x128.rank)
  reducesTo_S32x1024x128_S_d0_1_2 : S32x1024x128.ReducesTo [0, 1, 2] S_
  h_S_ : 0 < S_.numel

variable [Facts]

def fn {F : FTy → Type} [FloatOps F] (main_arg0 : FVec F S32x1024x128 .f32) (main_arg1 : FVec F S32x1024x128 .f32) (main_arg2 : FVec F S32x1024x128 .f32) : IVec S_ 1 :=
  let main_v0 : FVec F S32x1024x128 .f32 := Host.absf main_arg0
  let main_cst : FVec F S_ .f32 := constant S_ .f32 0x7F800000#32
  let main_v1 : FVec F S32x1024x128 .f32 := broadcastInDim S32x1024x128 ![] bcast_S_S32x1024x128 main_cst
  let main_v2 : IVec S32x1024x128 1 := cmpf .olt main_v0 main_v1
  let main_c : IVec S_ 1 := constantI S_ 1 1#1
  let main_v3 : IVec S_ 1 := (fun x v => Host.reduce IntOp.andi x v reducesTo_S32x1024x128_S_d0_1_2 h_S_) main_v2 main_c
  let main_v4 : FVec F S32x1024x128 .f32 := Host.absf main_arg1
  let main_cst_0 : FVec F S_ .f32 := constant S_ .f32 0x7F800000#32
  let main_v5 : FVec F S32x1024x128 .f32 := broadcastInDim S32x1024x128 ![] bcast_S_S32x1024x128 main_cst_0
  let main_v6 : IVec S32x1024x128 1 := cmpf .olt main_v4 main_v5
  let main_c_1 : IVec S_ 1 := constantI S_ 1 1#1
  let main_v7 : IVec S_ 1 := (fun x v => Host.reduce IntOp.andi x v reducesTo_S32x1024x128_S_d0_1_2 h_S_) main_v6 main_c_1
  let main_v8 : IVec S_ 1 := andi main_v3 main_v7
  let main_v9 : FVec F S32x1024x128 .f32 := Host.absf main_arg2
  let main_cst_2 : FVec F S_ .f32 := constant S_ .f32 0x7F800000#32
  let main_v10 : FVec F S32x1024x128 .f32 := broadcastInDim S32x1024x128 ![] bcast_S_S32x1024x128 main_cst_2
  let main_v11 : IVec S32x1024x128 1 := cmpf .olt main_v9 main_v10
  let main_c_3 : IVec S_ 1 := constantI S_ 1 1#1
  let main_v12 : IVec S_ 1 := (fun x v => Host.reduce IntOp.andi x v reducesTo_S32x1024x128_S_d0_1_2 h_S_) main_v11 main_c_3
  let main_v13 : IVec S_ 1 := andi main_v8 main_v12
  main_v13
-- ==== Kernel.lean ====
abbrev S32x1024x128 : Shape := ⟨3, ![32, 1024, 128]⟩
abbrev S32x1024x1024 : Shape := ⟨3, ![32, 1024, 1024]⟩
abbrev S1x512x128 : Shape := ⟨3, ![1, 512, 128]⟩
abbrev S1x1024x128 : Shape := ⟨3, ![1, 1024, 128]⟩
abbrev S1x512x1024 : Shape := ⟨3, ![1, 512, 1024]⟩
abbrev S512x128 : Shape := ⟨2, ![512, 128]⟩
abbrev S1024x128 : Shape := ⟨2, ![1024, 128]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S32x1024x128, .f32⟩
  | .hbm, ⟨1, _⟩ => ⟨S32x1024x128, .f32⟩
  | .hbm, ⟨2, _⟩ => ⟨S32x1024x128, .f32⟩
  | .hbm, ⟨3, _⟩ => ⟨S32x1024x128, .f32⟩
  | .hbm, ⟨4, _⟩ => ⟨S32x1024x1024, .f32⟩
  | .local _ .vmem, ⟨0, _⟩ => ⟨S1x512x128, .f32⟩
  | .local _ .vmem, ⟨1, _⟩ => ⟨S1x512x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1x512x128, .f32⟩
  | .local _ .vmem, ⟨7, _⟩ => ⟨S1x512x128, .f32⟩
  | .local _ .vmem, ⟨8, _⟩ => ⟨S1x512x1024, .f32⟩
  | .local _ .vmem, ⟨9, _⟩ => ⟨S1x512x1024, .f32⟩
  | _, _ => ⟨S32x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  bitsLt_bf16_f32 : FTy.bits .bf16 < FTy.bits .f32
  reduces_S512x1024_S512 : S512x1024.Reduces [1] S512
  shapeCasts_S512_S512x1 : S512.ShapeCasts S512x1
  broadcasts_S512x1_S512x1024 : S512x1.Broadcasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  shapeCasts_S512x128_S1x512x128 : S512x128.ShapeCasts S1x512x128
  dot_S512x128_S1024x128_S512x1024_1_1_0_0_n_n_wf : DotDims.WF S512x128 S1024x128 S512x1024 [1] [1] [0] [0] [] []
  dot_S512x1024_S1024x128_S512x128_1_0_0_1_n_n_wf : DotDims.WF S512x1024 S1024x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S32x1024x128.size a
  hwx0_0 : ∀ i : grid0.Coords, EltTy.bits .f32 = 32 ∨ (Rect.block (s := S32x1024x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S32x1024x128.size a
  hwx0_1 : ∀ i : grid0.Coords, EltTy.bits .f32 = 32 ∨ (Rect.block (s := S32x1024x128) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S32x1024x128.size a
  hwx0_2 : ∀ i : grid0.Coords, EltTy.bits .f32 = 32 ∨ (Rect.block (s := S32x1024x128) S1x1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x128.size a ≤ S32x1024x128.size a
  hwx0_3 : ∀ i : grid0.Coords, EltTy.bits .f32 = 32 ∨ (Rect.block (s := S32x1024x128) S1x512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S32x1024x1024.size a
  hwx0_4 : ∀ i : grid0.Coords, EltTy.bits .f32 = 32 ∨ (Rect.block (s := S32x1024x1024) S1x512x1024.size (cc0_transform_4 i) (hinb0_4 i)).WholeWords (EltTy.packing .f32)

variable [Facts₀]

def dot_S512x128_S1024x128_S512x1024_1_1_0_0_n_n : DotDims S512x128 S1024x128 S512x1024 where
  lhsContracting := [1]
  rhsContracting := [1]
  lhsNonContracting := [0]
  rhsNonContracting := [0]
  lhsBatch := []
  rhsBatch := []
  wf := dot_S512x128_S1024x128_S512x1024_1_1_0_0_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x512x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x1024x128 : Shape := ⟨3, ![32, 1024, 128]⟩
abbrev S32x1024x1024 : Shape := ⟨3, ![32, 1024, 1024]⟩
abbrev S_ : Shape := ⟨0, ![]⟩
abbrev S32x1024 : Shape := ⟨2, ![32, 1024]⟩
abbrev S32x1024x1 : Shape := ⟨3, ![32, 1024, 1]⟩

abbrev nBuf : Space → Nat
  | .hbm => 20
  | .vmem => 0
  | .smem => 0
  | _ => 0

abbrev bufTy : (tb : Table) → Fin (tcTables nBuf tb) → BufTy
  | .hbm, ⟨0, _⟩ => ⟨S32x1024x128, .f32⟩
  | .hbm, ⟨1, _⟩ => ⟨S32x1024x128, .f32⟩
  | .hbm, ⟨2, _⟩ => ⟨S32x1024x128, .f32⟩
  | .hbm, ⟨3, _⟩ => ⟨S32x1024x1024, .f32⟩
  | .hbm, ⟨4, _⟩ => ⟨S_, .f32⟩
  | .hbm, ⟨5, _⟩ => ⟨S32x1024, .f32⟩
  | .hbm, ⟨6, _⟩ => ⟨S_, .f32⟩
  | .hbm, ⟨7, _⟩ => ⟨S32x1024, .f32⟩
  | .hbm, ⟨8, _⟩ => ⟨S32x1024, .f32⟩
  | .hbm, ⟨9, _⟩ => ⟨S32x1024x1, .f32⟩
  | .hbm, ⟨10, _⟩ => ⟨S32x1024x1024, .f32⟩
  | .hbm, ⟨11, _⟩ => ⟨S32x1024x1024, .f32⟩
  | .hbm, ⟨12, _⟩ => ⟨S32x1024x1024, .f32⟩
  | .hbm, ⟨13, _⟩ => ⟨S_, .f32⟩
  | .hbm, ⟨14, _⟩ => ⟨S32x1024, .f32⟩
  | .hbm, ⟨15, _⟩ => ⟨S32x1024x1, .f32⟩
  | .hbm, ⟨16, _⟩ => ⟨S32x1024x1024, .f32⟩
  | .hbm, ⟨17, _⟩ => ⟨S32x1024x1024, .f32⟩
  | .hbm, ⟨18, _⟩ => ⟨S32x1024x128, .f32⟩
  | .hbm, ⟨19, _⟩ => ⟨S32x1024x128, .f32⟩
  | _, _ => ⟨S32x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  reducesTo_S32x1024x1024_S32x1024_d2 : S32x1024x1024.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  dot_S32x1024x128_S32x1024x128_S32x1024x1024_2_2_1_1_0_0_wf : DotDims.WF S32x1024x128 S32x1024x128 S32x1024x1024 [2] [2] [1] [1] [0] [0]
  dot_S32x1024x1024_S32x1024x128_S32x1024x128_2_1_1_2_0_0_wf : DotDims.WF S32x1024x1024 S32x1024x128 S32x1024x128 [2] [1] [1] [2] [0] [0]

variable [Facts₀]

def dot_S32x1024x128_S32x1024x128_S32x1024x1024_2_2_1_1_0_0 : DotDims S32x1024x128 S32x1024x128 S32x1024x1024 where
  lhsContracting := [2]
  rhsContracting := [2]
  lhsNonContracting := [1]
  rhsNonContracting := [1]
  lhsBatch := [0]
  rhsBatch := [0]
  wf := dot_S32x1024x128_S32x1024x128_S32x1024x1024_2_2_1_1_0_0_wf
def dot_S32x1024x1024_S32x1024x128_S32x1024x128_2_1_1_2_0_0 : DotDims S32x1024x1024 S32x1024x128 S32x1024x128 where
  lhsContracting := [2]
  rhsContracting := [1]
  lhsNonContracting := [1]
  rhsNonContracting := [2]
  lhsBatch := [0]
  rhsBatch := [0]
  wf := dot_S32x1024x1024_S32x1024x128_S32x1024x128_2_1_1_2_0_0_wf

class Facts : Prop extends Facts₀ where

variable [Facts]
-- ==== Proof.LibRowSoftmax.lean ====
/-
  Row-wise softmax read at an index, at the ideal (extended-real) values.

  A kernel that normalises the rows of an `[a, b]` matrix writes
  `exp (s - max_row s) / sum_row (exp (s - max_row s))`, the two row statistics taken by a reduction over
  axis 1, turned into a column `[a, 1]` and spread back over the `b` lanes. Entry `(r, j)` of the result
  depends on row `r` of `s` only: it is `softmaxOf (fun j' => s (r, j')) j`, where
  `softmaxOf f j = exp (f j - M) / ∑ j', exp (f j' - M)` and `M` is the maximum of `f` folded from `-∞`.
  No algebra on the extended reals is used: each printed operation is read at the index.
-/
import Idealize.ShloMosaic.PureOps.Ideal.Laws
import Idealize.ShloMosaic.Lib.ValueIdx
import Idealize.ShloMosaic.Lib.ValueLayout

noncomputable section

namespace Cert.Lib.RowSoftmax

open Idealize.ShloMosaic Idealize.ShloMosaic.ValueIdx

/-! ## The two keep-dims layout steps -/

section Layout
variable {α : Type}

/-- A length-`a` vector cast to a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(i, j)`, the column at `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The two steps together: a per-row statistic spread back over the lanes reads, at `(i, j)`, the statistic of row `i`. -/
theorem keepdims_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ x hc) hb (ix2 i j) = x (ix1 i) :=
  (broadcastTo_a1_ab_apply _ hb i j).trans (shapeCast_a_a1_apply x hc i 0)

end Layout

/-! ## The two row reductions -/

/-- The index over row `r` with lane `j` inserted is `(r, j)`. -/
theorem lift_row {a b : ℕ} (h : (⟨2, ![a, b]⟩ : Shape).Reduces [1] ⟨1, ![a]⟩) (r : Fin a) (j : Fin b) :
    h.lift (ix1 r) j = ix2 r j := by
  funext c; apply Fin.ext
  match c with
  | ⟨0, _⟩ => rfl
  | ⟨1, _⟩ => rfl

/-- A maximum over the lanes, at row `r`: the fold of `max` from the accumulator's value over that row's entries. -/
theorem rowMax_apply {a b : ℕ} (s : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ s acc h hφ hacc (ix1 r)
      = (Finset.univ : Finset (Fin b)).fold max (Ideal.ofBits .f32 acc) (fun j => s (ix2 r j)) := by
  refine (Ideal.multiReduction_maximumf_single s acc h hφ hacc (ix1 r)).trans ?_
  show (Finset.univ : Finset (Fin b)).fold max (Ideal.ofBits .f32 acc) (fun j => s (h.lift (ix1 r) j)) = _
  exact congrArg (fun f => (Finset.univ : Finset (Fin b)).fold max (Ideal.ofBits .f32 acc) f)
    (funext fun j => congrArg s (lift_row h r j))

/-- A sum over the lanes, at row `r`: the sum of that row's entries. -/
theorem rowSum_apply {a b : ℕ} (p : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ p acc h hφ hacc (ix1 r) = ∑ j : Fin b, p (ix2 r j) := by
  refine (Ideal.multiReduction_add_single p acc h hφ hacc (ix1 r)).trans ?_
  show ∑ j : Fin b, p (h.lift (ix1 r) j) = _
  exact Finset.sum_congr rfl fun j _ => congrArg p (lift_row h r j)

/-! ## Softmax of one row -/

/-- `-∞`, as the bit pattern both programs start their maximum from. -/
abbrev negInf : EReal := Ideal.ofBits .f32 0xFF800000#32

/-- The maximum of a row, folded from `-∞`. -/
def maxOf {b : ℕ} (f : Fin b → EReal) : EReal := (Finset.univ : Finset (Fin b)).fold max negInf f

/-- Taking the maximum with `-∞` once more changes nothing: the fold already starts there. -/
theorem max_negInf_maxOf {b : ℕ} (f : Fin b → EReal) : max negInf (maxOf f) = maxOf f :=
  max_eq_right ((Finset.le_fold_max negInf).mpr (Or.inl le_rfl))

/-- The unnormalised weight of lane `j`: `exp (f j - max f)`. -/
def weightOf {b : ℕ} (f : Fin b → EReal) (j : Fin b) : EReal := Ideal.exp (f j - maxOf f)

/-- Softmax of a row at lane `j`: its weight over the sum of the row's weights. -/
def softmaxOf {b : ℕ} (f : Fin b → EReal) (j : Fin b) : EReal :=
  Ideal.div (weightOf f j) (∑ j' : Fin b, weightOf f j')

/-- The chain a kernel prints for a row-wise softmax of an `[a, b]` matrix `s` — row maximum, subtract, `exp`,
    row sum, divide, both statistics kept as columns and spread over the lanes — read at `(r, j)`: the softmax of
    row `r` at lane `j`. -/
theorem softmax_rows_apply {a b : ℕ} (s : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hmax : (0xFF800000#32 : BitVec 32) = FKind.maximumf.neutral .f32 hφ)
    (hadd : (0x00000000#32 : BitVec 32) = FKind.add.neutral .f32 hφ) (r : Fin a) (j : Fin b) :
    divf
        (exp (subf s (broadcastTo ⟨2, ![a, b]⟩ (shapeCast ⟨2, ![a, 1]⟩
          (multiReduction .maximumf [1] ⟨1, ![a]⟩ s 0xFF800000#32 hr hφ hmax) hc) hb)))
        (broadcastTo ⟨2, ![a, b]⟩ (shapeCast ⟨2, ![a, 1]⟩
          (multiReduction .add [1] ⟨1, ![a]⟩
            (exp (subf s (broadcastTo ⟨2, ![a, b]⟩ (shapeCast ⟨2, ![a, 1]⟩
              (multiReduction .maximumf [1] ⟨1, ![a]⟩ s 0xFF800000#32 hr hφ hmax) hc) hb)))
            0x00000000#32 hr hφ hadd) hc) hb)
        (ix2 r j)
      = softmaxOf (fun j' => s (ix2 r j')) j := by
  -- the weights, entry by entry
  have hw : ∀ j' : Fin b,
      exp (subf s (broadcastTo ⟨2, ![a, b]⟩ (shapeCast ⟨2, ![a, 1]⟩
          (multiReduction .maximumf [1] ⟨1, ![a]⟩ s 0xFF800000#32 hr hφ hmax) hc) hb)) (ix2 r j')
        = weightOf (fun j'' => s (ix2 r j'')) j' := by
    intro j'
    show Ideal.exp (s (ix2 r j') - broadcastTo ⟨2, ![a, b]⟩ (shapeCast ⟨2, ![a, 1]⟩
          (multiReduction .maximumf [1] ⟨1, ![a]⟩ s 0xFF800000#32 hr hφ hmax) hc) hb (ix2 r j')) = _
    rw [keepdims_apply _ hc hb r j', rowMax_apply s _ hr hφ hmax r]
    rfl
  show Ideal.div _ _ = _
  rw [hw j, keepdims_apply _ hc hb r j, rowSum_apply _ _ hr hφ hadd r]
  unfold softmaxOf
  exact congrArg (Ideal.div _) (Finset.sum_congr rfl fun j' _ => hw j')

end Cert.Lib.RowSoftmax

end
-- ==== Proof.Attention.lean ====
/-
  What the attention computes, as functions on the extended reals.

  For one batch entry, one query row `qrow : Fin 128 → EReal` meets the 1024 key rows: `score qrow keys j` is the
  inner product with key `j`; `prob` is the softmax of the scores over the keys; `mix` takes the average of the
  value rows under those probabilities and multiplies it, coordinate by coordinate, by the query row itself.
  The two result arrays are these functions at the row the index names: entry `(b, i, j)` of the attention array is
  `prob` of query row `(b, i)` against the keys of batch `b` at key `j`, and entry `(b, i, d)` of the output array is
  `mix` of the same row at coordinate `d`. A row of the result depends on the query row, the key matrix and the value
  matrix of its batch entry, and on nothing else — which is why a tiling of the query rows computes the same arrays.
-/
import proofs.«133307_j2035814499006_2_alg».proof.Proof.LibRowSoftmax

noncomputable section

namespace Cert.Attn

open Idealize.ShloMosaic Idealize.ShloMosaic.ValueIdx Cert.Lib.RowSoftmax

/-- The inner product of a query row with key row `j`. -/
def score (qrow : Fin 128 → EReal) (keys : Fin 1024 → Fin 128 → EReal) (j : Fin 1024) : EReal :=
  ∑ d : Fin 128, qrow d * keys j d

/-- The attention weight of key `j` for a query row: the softmax of the row's scores. -/
def prob (qrow : Fin 128 → EReal) (keys : Fin 1024 → Fin 128 → EReal) (j : Fin 1024) : EReal :=
  softmaxOf (score qrow keys) j

/-- The value rows averaged under the attention weights, times the query row, at coordinate `d`. -/
def mix (qrow : Fin 128 → EReal) (keys vals : Fin 1024 → Fin 128 → EReal) (d : Fin 128) : EReal :=
  (∑ j : Fin 1024, prob qrow keys j * vals j d) * qrow d

/-- An argument array: 32 batch entries of 1024 rows of 128 coordinates. -/
abbrev Arr : Type := (⟨3, ![32, 1024, 128]⟩ : Shape).Idx → EReal

/-- Row `i` of batch entry `b`. -/
def rowOf (x : Arr) (b : Fin 32) (i : Fin 1024) : Fin 128 → EReal := fun d => x (ix3 b i d)

/-- The 1024 × 128 matrix of batch entry `b`. -/
def matOf (x : Arr) (b : Fin 32) : Fin 1024 → Fin 128 → EReal := fun j d => x (ix3 b j d)

/-- The attention array: entry `(b, i, j)` is the weight of key `j` for query row `(b, i)`. -/
def attnOf (q k : Arr) : (⟨3, ![32, 1024, 1024]⟩ : Shape).Idx → EReal :=
  fun i => prob (rowOf q (i 0) (i 1)) (matOf k (i 0)) (i 2)

/-- The output array: entry `(b, i, d)` is coordinate `d` of the mixed value row of query row `(b, i)`. -/
def outOf (q k v : Arr) : Arr :=
  fun i => mix (rowOf q (i 0) (i 1)) (matOf k (i 0)) (matOf v (i 0)) (i 2)

theorem attnOf_apply (q k : Arr) (b : Fin 32) (i j : Fin 1024) :
    attnOf q k (ix3 b i j) = prob (rowOf q b i) (matOf k b) j := rfl

theorem outOf_apply (q k v : Arr) (b : Fin 32) (i : Fin 1024) (d : Fin 128) :
    outOf q k v (ix3 b i d) = mix (rowOf q b i) (matOf k b) (matOf v b) d := rfl

end Cert.Attn

end
-- ==== Proof.Block.lean ====
/-
  What the kernel body computes from its three blocks.

  At a grid point the body holds a block of 512 query rows and the whole key and value matrices of the block's
  batch entry (each with a leading axis of extent one). Its first matrix product is the table of scores of the
  block's query rows against all keys; the row-wise softmax chain makes the attention weights of each row; the second
  product averages the value rows, and the last product multiplies by the query block. So entry `(r, j)` of the
  weights it stores is `prob` of query row `r` of the block at key `j`, and entry `(r, d)` of the output block is
  `mix` of that row at coordinate `d`: the same functions of one query row as in the whole arrays.
  The narrowing of the operands before each product is the identity on the extended reals.
-/
import proofs.«133307_j2035814499006_2_alg».proof.Proof.Attention
import proofs.«133307_j2035814499006_2_alg».proof.Proof.Gen.KernelIdeal.Skeleton

noncomputable section

namespace Cert.Attn.Block

open Cert.KernelIdeal Cert.KernelIdeal.Gen
open Idealize.ShloMosaic Idealize.ShloMosaic.ValueIdx Cert.Lib.RowSoftmax Cert.Attn

/-- Row `r` of a block of 512 query rows. -/
def blkRow (x0 : Vec Ideal S1x512x128 .f32) (r : Fin 512) : Fin 128 → EReal := fun d => x0 (ix3 (0 : Fin 1) r d)

/-- The 1024 × 128 matrix a key or value block holds. -/
def blkMat (x : Vec Ideal S1x1024x128 .f32) : Fin 1024 → Fin 128 → EReal := fun j d => x (ix3 (0 : Fin 1) j d)

/-! ## The first product: queries against keys, contracting the 128 coordinates -/

theorem qk_lhs0 (i : S512x1024.Idx) (c : dot_S512x128_S1024x128_S512x1024_1_1_0_0_n_n.contr.Idx) :
    (dot_S512x128_S1024x128_S512x1024_1_1_0_0_n_n.lhsIdx i c 0).val = (i 0).val := by
  unfold DotDims.lhsIdx
  rw [dif_neg (show ¬(0 : Fin S512x128.rank) ∈ dot_S512x128_S1024x128_S512x1024_1_1_0_0_n_n.lhsBatch by decide),
    dif_pos (show (0 : Fin S512x128.rank) ∈ dot_S512x128_S1024x128_S512x1024_1_1_0_0_n_n.lhsNonContracting by decide)]
  rfl
theorem qk_lhs1 (i : S512x1024.Idx) (c : dot_S512x128_S1024x128_S512x1024_1_1_0_0_n_n.contr.Idx) :
    (dot_S512x128_S1024x128_S512x1024_1_1_0_0_n_n.lhsIdx i c 1).val = (c ⟨0, by decide⟩).val :=
  dot_S512x128_S1024x128_S512x1024_1_1_0_0_n_n.lhsIdx_val_of_single rfl i c
theorem qk_rhs0 (i : S512x1024.Idx) (c : dot_S512x128_S1024x128_S512x1024_1_1_0_0_n_n.contr.Idx) :
    (dot_S512x128_S1024x128_S512x1024_1_1_0_0_n_n.rhsIdx i c 0).val = (i 1).val := by
  unfold DotDims.rhsIdx
  rw [dif_neg (show ¬(0 : Fin S1024x128.rank) ∈ dot_S512x128_S1024x128_S512x1024_1_1_0_0_n_n.rhsBatch by decide),
    dif_pos (show (0 : Fin S1024x128.rank) ∈ dot_S512x128_S1024x128_S512x1024_1_1_0_0_n_n.rhsNonContracting by decide)]
  rfl
theorem qk_rhs1 (i : S512x1024.Idx) (c : dot_S512x128_S1024x128_S512x1024_1_1_0_0_n_n.contr.Idx) :
    (dot_S512x128_S1024x128_S512x1024_1_1_0_0_n_n.rhsIdx i c 1).val = (c ⟨0, by decide⟩).val :=
  dot_S512x128_S1024x128_S512x1024_1_1_0_0_n_n.rhsIdx_val_of_single rfl i c

/-- Entry `(r, j)` of the first product is the score of query row `r` against key row `j`. -/
theorem scores_apply (x0 : Vec Ideal S1x512x128 .f32) (x1 : Vec Ideal S1x1024x128 .f32) (r : Fin 512) (j : Fin 1024) :
    matmul dot_S512x128_S1024x128_S512x1024_1_1_0_0_n_n none
        (truncf .bf16 (k0_pay1 (F := Ideal) x0) bitsLt_bf16_f32)
        (truncf .bf16 (shapeCast S1024x128 x1 shapeCasts_S1x1024x128_S1024x128) bitsLt_bf16_f32)
        (constant (F := Ideal) S512x1024 .f32 0x00000000#32) (ix2 r j)
      = score (blkRow x0 r) (blkMat x1) j := by
  refine (Ideal.matmul_constant_zero_apply dot_S512x128_S1024x128_S512x1024_1_1_0_0_n_n none _ _ (ix2 r j)).trans ?_
  rw [← Equiv.sum_comp (contrEquiv1 dot_S512x128_S1024x128_S512x1024_1_1_0_0_n_n 128 rfl rfl).symm]
  unfold score
  refine Finset.sum_congr rfl fun d _ => ?_
  have hk := contrEquiv1_symm_val dot_S512x128_S1024x128_S512x1024_1_1_0_0_n_n 128 rfl rfl d
  have el : dot_S512x128_S1024x128_S512x1024_1_1_0_0_n_n.lhsIdx (ix2 r j)
      ((contrEquiv1 dot_S512x128_S1024x128_S512x1024_1_1_0_0_n_n 128 rfl rfl).symm d) = ix2 r d :=
    funext fun a => Fin.ext (by
      match a with
      | ⟨0, _⟩ => exact qk_lhs0 _ _
      | ⟨1, _⟩ => exact (qk_lhs1 _ _).trans hk)
  have er : dot_S512x128_S1024x128_S512x1024_1_1_0_0_n_n.rhsIdx (ix2 r j)
      ((contrEquiv1 dot_S512x128_S1024x128_S512x1024_1_1_0_0_n_n 128 rfl rfl).symm d) = ix2 j d :=
    funext fun a => Fin.ext (by
      match a with
      | ⟨0, _⟩ => exact qk_rhs0 _ _
      | ⟨1, _⟩ => exact (qk_rhs1 _ _).trans hk)
  rw [el, er]
  show shapeCast S512x128 x0 shapeCasts_S1x512x128_S512x128 (ix2 r d)
      * shapeCast S1024x128 x1 shapeCasts_S1x1024x128_S1024x128 (ix2 j d) = _
  rw [shapeCast_1ab_ab_apply, shapeCast_1ab_ab_apply]
  rfl

/-- Entry `(r, j)` of the weights the body stores: the attention weight of key `j` for query row `r` of the block. -/
theorem weights_apply (x0 : Vec Ideal S1x512x128 .f32) (x1 : Vec Ideal S1x1024x128 .f32) (r : Fin 512) (j : Fin 1024) :
    k0_pay2 (F := Ideal) x0 x1 (ix2 r j) = prob (blkRow x0 r) (blkMat x1) j := by
  unfold k0_pay2
  refine (softmax_rows_apply (a := 512) (b := 1024) _ reduces_S512x1024_S512 shapeCasts_S512_S512x1
    broadcasts_S512x1_S512x1024 (.inl rfl) rfl rfl r j).trans ?_
  unfold prob
  exact congrArg (fun f => softmaxOf f j) (funext fun j' => scores_apply x0 x1 r j')

/-- Entry `(0, r, j)` of the weight block the body stores is that weight (a leading axis of extent one is put back). -/
theorem stored_weights_apply (x0 : Vec Ideal S1x512x128 .f32) (x1 : Vec Ideal S1x1024x128 .f32) (u : Fin 1) (r : Fin 512)
    (j : Fin 1024) : k0_pay3 (F := Ideal) x0 x1 (ix3 u r j) = prob (blkRow x0 r) (blkMat x1) j := by
  unfold k0_pay3
  exact (shapeCast_ab_1ab_apply _ shapeCasts_S512x1024_S1x512x1024 u r j).trans (weights_apply x0 x1 r j)

/-! ## The second product: weights against values, contracting the 1024 keys -/

theorem pv_lhs0 (i : S512x128.Idx) (c : dot_S512x1024_S1024x128_S512x128_1_0_0_1_n_n.contr.Idx) :
    (dot_S512x1024_S1024x128_S512x128_1_0_0_1_n_n.lhsIdx i c 0).val = (i 0).val := by
  unfold DotDims.lhsIdx
  rw [dif_neg (show ¬(0 : Fin S512x1024.rank) ∈ dot_S512x1024_S1024x128_S512x128_1_0_0_1_n_n.lhsBatch by decide),
    dif_pos (show (0 : Fin S512x1024.rank) ∈ dot_S512x1024_S1024x128_S512x128_1_0_0_1_n_n.lhsNonContracting by decide)]
  rfl
theorem pv_lhs1 (i : S512x128.Idx) (c : dot_S512x1024_S1024x128_S512x128_1_0_0_1_n_n.contr.Idx) :
    (dot_S512x1024_S1024x128_S512x128_1_0_0_1_n_n.lhsIdx i c 1).val = (c ⟨0, by decide⟩).val :=
  dot_S512x1024_S1024x128_S512x128_1_0_0_1_n_n.lhsIdx_val_of_single rfl i c
theorem pv_rhs0 (i : S512x128.Idx) (c : dot_S512x1024_S1024x128_S512x128_1_0_0_1_n_n.contr.Idx) :
    (dot_S512x1024_S1024x128_S512x128_1_0_0_1_n_n.rhsIdx i c 0).val = (c ⟨0, by decide⟩).val :=
  dot_S512x1024_S1024x128_S512x128_1_0_0_1_n_n.rhsIdx_val_of_single rfl i c
theorem pv_rhs1 (i : S512x128.Idx) (c : dot_S512x1024_S1024x128_S512x128_1_0_0_1_n_n.contr.Idx) :
    (dot_S512x1024_S1024x128_S512x128_1_0_0_1_n_n.rhsIdx i c 1).val = (i 1).val := by
  unfold DotDims.rhsIdx
  rw [dif_neg (show ¬(1 : Fin S1024x128.rank) ∈ dot_S512x1024_S1024x128_S512x128_1_0_0_1_n_n.rhsBatch by decide),
    dif_pos (show (1 : Fin S1024x128.rank) ∈ dot_S512x1024_S1024x128_S512x128_1_0_0_1_n_n.rhsNonContracting by decide)]
  rfl

/-- Entry `(r, d)` of the second product, for any table of weights `p`: row `r` of `p` against column `d` of the values. -/
theorem mixed_apply (p : FVec Ideal S512x1024 .f32) (x2 : Vec Ideal S1x1024x128 .f32) (r : Fin 512) (d : Fin 128) :
    matmul dot_S512x1024_S1024x128_S512x128_1_0_0_1_n_n none
        (truncf .bf16 p bitsLt_bf16_f32)
        (truncf .bf16 (shapeCast S1024x128 x2 shapeCasts_S1x1024x128_S1024x128) bitsLt_bf16_f32)
        (constant (F := Ideal) S512x128 .f32 0x00000000#32) (ix2 r d)
      = ∑ j : Fin 1024, p (ix2 r j) * blkMat x2 j d := by
  refine (Ideal.matmul_constant_zero_apply dot_S512x1024_S1024x128_S512x128_1_0_0_1_n_n none _ _ (ix2 r d)).trans ?_
  rw [← Equiv.sum_comp (contrEquiv1 dot_S512x1024_S1024x128_S512x128_1_0_0_1_n_n 1024 rfl rfl).symm]
  refine Finset.sum_congr rfl fun j _ => ?_
  have hk := contrEquiv1_symm_val dot_S512x1024_S1024x128_S512x128_1_0_0_1_n_n 1024 rfl rfl j
  have el : dot_S512x1024_S1024x128_S512x128_1_0_0_1_n_n.lhsIdx (ix2 r d)
      ((contrEquiv1 dot_S512x1024_S1024x128_S512x128_1_0_0_1_n_n 1024 rfl rfl).symm j) = ix2 r j :=
    funext fun a => Fin.ext (by
      match a with
      | ⟨0, _⟩ => exact pv_lhs0 _ _
      | ⟨1, _⟩ => exact (pv_lhs1 _ _).trans hk)
  have er : dot_S512x1024_S1024x128_S512x128_1_0_0_1_n_n.rhsIdx (ix2 r d)
      ((contrEquiv1 dot_S512x1024_S1024x128_S512x128_1_0_0_1_n_n 1024 rfl rfl).symm j) = ix2 j d :=
    funext fun a => Fin.ext (by
      match a with
      | ⟨0, _⟩ => exact (pv_rhs0 _ _).trans hk
      | ⟨1, _⟩ => exact pv_rhs1 _ _)
  rw [el, er]
  show p (ix2 r j) * shapeCast S1024x128 x2 shapeCasts_S1x1024x128_S1024x128 (ix2 j d) = _
  rw [shapeCast_1ab_ab_apply]
  rfl

/-- Entry `(0, r, d)` of the output block the body stores: the mixed value row of query row `r`, at coordinate `d`. -/
theorem out_apply (x0 : Vec Ideal S1x512x128 .f32) (x1 x2 : Vec Ideal S1x1024x128 .f32) (u : Fin 1) (r : Fin 512) (d : Fin 128) :
    k0_pay4 (F := Ideal) x0 x1 x2 (ix3 u r d) = mix (blkRow x0 r) (blkMat x1) (blkMat x2) d := by
  unfold k0_pay4
  refine (shapeCast_ab_1ab_apply _ shapeCasts_S512x128_S1x512x128 u r d).trans ?_
  show matmul dot_S512x1024_S1024x128_S512x128_1_0_0_1_n_n none
        (truncf .bf16 (k0_pay2 (F := Ideal) x0 x1) bitsLt_bf16_f32)
        (truncf .bf16 (shapeCast S1024x128 x2 shapeCasts_S1x1024x128_S1024x128) bitsLt_bf16_f32)
        (constant (F := Ideal) S512x128 .f32 0x00000000#32) (ix2 r d)
      * shapeCast S512x128 x0 shapeCasts_S1x512x128_S512x128 (ix2 r d) = _
  rw [mixed_apply, shapeCast_1ab_ab_apply]
  unfold mix
  refine congrArg (· * blkRow x0 r d) (Finset.sum_congr rfl fun j _ => ?_)
  rw [weights_apply]

end Cert.Attn.Block

end
-- ==== Proof.Kernel.lean ====
/-
  From what each grid point writes back to the two result arrays.

  Grid point `t` is a pair (batch entry, half of the query rows). Its query, output and weight blocks sit at block
  index (batch entry, half, 0) of their arrays, its key and value blocks at (batch entry, 0, 0): so row `r` of the query
  block is query row `512 · half + r` of that batch entry, and the key and value blocks are that batch entry's whole
  matrices. By the block lemmas the point therefore writes back exactly its block of the attention array and of the
  output array — the same functions `prob` and `mix` of one query row. The 64 blocks tile each result array (the point
  that covers row `i` of batch entry `b` is (b, i / 512)), so after the run each array is the whole function.
-/
import proofs.«133307_j2035814499006_2_alg».proof.Proof.Block
import proofs.«133307_j2035814499006_2_alg».proof.Proof.Gen.KernelIdeal.Value

set_option maxRecDepth 16384

noncomputable section

namespace Cert.Attn.Kernel

open Cert.KernelIdeal Cert.KernelIdeal.Gen Idealize.ShloMosaic Idealize.ShloMosaic.TcCoe Idealize.SL.Sem
open Idealize.ShloMosaic.Pipeline (Dat)
open Idealize.ShloMosaic.ValueIdx Cert.Lib.RowSoftmax Cert.Attn

variable (m : (ℓ : Loc nD τ sig) → Buf (Elt Ideal) ℓ) (ρ : Dev nD → PrngReg)

theorem hz : (![0, 0, 0] : Fin 3 → Nat) = fun _ => 0 := funext fun a => by fin_cases a <;> rfl

/-! ## The index maps, decided over the 64 grid points -/

/-- The output block's index at a point: a batch entry, a half, and 0. -/
theorem idx_bounds : ∀ t : Fin cfg0.N, win0_3.index t (0 : Fin 3) ≤ 31 ∧ win0_3.index t (1 : Fin 3) ≤ 1
    ∧ win0_3.index t (2 : Fin 3) = 0 :=
  (by decide +kernel : ∀ t : Fin grid0.N, _)

/-- The other windows' block indices relative to the output block's: the query and weight blocks move with it, the key
    and value blocks follow its batch entry only. -/
theorem idx_rel : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0
    ∧ win0_1.index t (2 : Fin 3) = 0
    ∧ win0_2.index t (0 : Fin 3) = win0_3.index t (0 : Fin 3) ∧ win0_2.index t (1 : Fin 3) = 0
    ∧ win0_2.index t (2 : Fin 3) = 0
    ∧ win0_4.index t (0 : Fin 3) = win0_3.index t (0 : Fin 3) ∧ win0_4.index t (1 : Fin 3) = win0_3.index t (1 : Fin 3)
    ∧ win0_4.index t (2 : Fin 3) = 0 :=
  (by decide +kernel : ∀ t : Fin grid0.N, _)

/-- Every (batch entry, half) is some point's. -/
theorem idx_onto : ∀ (b : Fin 32) (h : Fin 2), ∃ t : Fin cfg0.N, win0_3.index t = ![b.val, h.val, 0] :=
  (by decide +kernel : ∀ (b : Fin 32) (h : Fin 2), ∃ t : Fin grid0.N, win0_3.index t = ![b.val, h.val, 0])

/-- The batch entry of a grid point. -/
def batchAt (t : Fin cfg0.N) : Fin 32 :=
  ⟨win0_3.index t (0 : Fin 3), by obtain ⟨h0, -, -⟩ := idx_bounds t; omega⟩

/-- The query row of the batch entry that row `r` of a point's block is. -/
def rowAt (t : Fin cfg0.N) (r : Fin 512) : Fin 1024 :=
  ⟨win0_3.index t (1 : Fin 3) * 512 + r.val, by obtain ⟨-, h1, -⟩ := idx_bounds t; have := r.isLt; omega⟩

/-! ## The blocks read off the arrays -/

/-- Row `r` of a point's query block is query row `rowAt t r` of its batch entry. -/
theorem qblk_apply (c : Dev nD) (t : Fin cfg0.N) (r : Fin 512) (d : Fin 128) :
    (iblk m c 0 t : Vec Ideal S1x512x128 .f32) (ix3 (0 : Fin 1) r d)
      = (V m c main_arg0 : Arr) (ix3 (batchAt t) (rowAt t r) d) := by
  obtain ⟨e0, e1, e2, -⟩ := idx_rel t
  unfold iblk
  rw [View.read_apply]
  show V m c main_arg0 _ = V m c main_arg0 _
  congr 1
  funext a
  apply Fin.ext
  match a with
  | ⟨0, _⟩ => show win0_0.index t (0 : Fin 3) * 1 + 1 * 0 = win0_3.index t (0 : Fin 3); omega
  | ⟨1, _⟩ => show win0_0.index t (1 : Fin 3) * 512 + 1 * r.val = win0_3.index t (1 : Fin 3) * 512 + r.val; omega
  | ⟨2, _⟩ => show win0_0.index t (2 : Fin 3) * 128 + 1 * d.val = d.val; omega

/-- A point's key block is its batch entry's key matrix. -/
theorem kblk_apply (c : Dev nD) (t : Fin cfg0.N) (j : Fin 1024) (d : Fin 128) :
    (iblk m c 1 t : Vec Ideal S1x1024x128 .f32) (ix3 (0 : Fin 1) j d)
      = (V m c main_arg1 : Arr) (ix3 (batchAt t) j d) := by
  obtain ⟨-, -, -, e0, e1, e2, -⟩ := idx_rel t
  unfold iblk
  rw [View.read_apply]
  show V m c main_arg1 _ = V m c main_arg1 _
  congr 1
  funext a
  apply Fin.ext
  match a with
  | ⟨0, _⟩ => show win0_1.index t (0 : Fin 3) * 1 + 1 * 0 = win0_3.index t (0 : Fin 3); omega
  | ⟨1, _⟩ => show win0_1.index t (1 : Fin 3) * 1024 + 1 * j.val = j.val; omega
  | ⟨2, _⟩ => show win0_1.index t (2 : Fin 3) * 128 + 1 * d.val = d.val; omega

/-- A point's value block is its batch entry's value matrix. -/
theorem vblk_apply (c : Dev nD) (t : Fin cfg0.N) (j : Fin 1024) (d : Fin 128) :
    (iblk m c 2 t : Vec Ideal S1x1024x128 .f32) (ix3 (0 : Fin 1) j d)
      = (V m c main_arg2 : Arr) (ix3 (batchAt t) j d) := by
  obtain ⟨-, -, -, -, -, -, e0, e1, e2, -⟩ := idx_rel t
  unfold iblk
  rw [View.read_apply]
  show V m c main_arg2 _ = V m c main_arg2 _
  congr 1
  funext a
  apply Fin.ext
  match a with
  | ⟨0, _⟩ => show win0_2.index t (0 : Fin 3) * 1 + 1 * 0 = win0_3.index t (0 : Fin 3); omega
  | ⟨1, _⟩ => show win0_2.index t (1 : Fin 3) * 1024 + 1 * j.val = j.val; omega
  | ⟨2, _⟩ => show win0_2.index t (2 : Fin 3) * 128 + 1 * d.val = d.val; omega

/-- The three blocks of a point as rows and matrices of its batch entry. -/
theorem qrow_eq (c : Dev nD) (t : Fin cfg0.N) (r : Fin 512) :
    Block.blkRow (iblk m c 0 t) r = rowOf (V m c main_arg0) (batchAt t) (rowAt t r) :=
  funext fun d => qblk_apply m c t r d
theorem kmat_eq (c : Dev nD) (t : Fin cfg0.N) : Block.blkMat (iblk m c 1 t) = matOf (V m c main_arg1) (batchAt t) :=
  funext fun j => funext fun d => kblk_apply m c t j d
theorem vmat_eq (c : Dev nD) (t : Fin cfg0.N) : Block.blkMat (iblk m c 2 t) = matOf (V m c main_arg2) (batchAt t) :=
  funext fun j => funext fun d => vblk_apply m c t j d

/-! ## The output array (window 3) -/

/-- Entry `(0, r, d)` of a point's output block sits at `(batch entry, rowAt t r, d)` of the array. -/
theorem emb3 (t : Fin cfg0.N) (u : Fin 1) (r : Fin 512) (d : Fin 128) :
    ((cfg0.win 3).blk t).view.emb (ix3 u r d) = (ix3 (batchAt t) (rowAt t r) d : S32x1024x128.Idx) := by
  obtain ⟨-, -, h2⟩ := idx_bounds t
  have hu : u.val = 0 := by omega
  funext a
  apply Fin.ext
  match a with
  | ⟨0, _⟩ => show win0_3.index t (0 : Fin 3) * 1 + 1 * u.val = win0_3.index t (0 : Fin 3); omega
  | ⟨1, _⟩ => show win0_3.index t (1 : Fin 3) * 512 + 1 * r.val = win0_3.index t (1 : Fin 3) * 512 + r.val; omega
  | ⟨2, _⟩ => show win0_3.index t (2 : Fin 3) * 128 + 1 * d.val = d.val; omega

/-- What point `t` writes back to the output array is its block of `outOf` of the argument arrays. -/
theorem flushed3_eq (c : Dev nD) (t : Fin cfg0.N) :
    (dats m 0 c).flushed 3 t
      = ((cfg0.win 3).blk t).view.read (Elt Ideal) (outOf (V m c main_arg0) (V m c main_arg1) (V m c main_arg2)) := by
  rw [Value.flushed3]
  unfold out0_3
  rw [View.canon_unit_zero hz]
  simp only [View.ld_unit_zero (S := S1x512x128) hz, View.ld_unit_zero (S := S1x1024x128) hz]
  funext y
  obtain ⟨u, r, d, rfl⟩ : ∃ (u : Fin 1) (r : Fin 512) (d : Fin 128), y = ix3 u r d := ⟨y 0, y 1, y 2, eq_ix3 y⟩
  show k0_pay4 (F := Ideal) (iblk m c 0 t) (iblk m c 1 t) (iblk m c 2 t) (ix3 u r d)
      = outOf (V m c main_arg0) (V m c main_arg1) (V m c main_arg2) (((cfg0.win 3).blk t).view.emb (ix3 u r d))
  rw [emb3 t u r d, outOf_apply]
  refine (Block.out_apply (iblk m c 0 t) (iblk m c 1 t) (iblk m c 2 t) u r d).trans ?_
  rw [qrow_eq m c t r, kmat_eq m c t, vmat_eq m c t]

/-- An index of the output array is in point `t`'s block iff each coordinate is in the block's range on its axis. -/
theorem mem_blk3 (t : Fin cfg0.N) (i : S32x1024x128.Idx) :
    i ∈ ((cfg0.win 3).blk t).view.set ↔ ∀ a : Fin 3, win0_3.index t a * S1x512x128.size a ≤ (i a).val
      ∧ (i a).val < win0_3.index t a * S1x512x128.size a + S1x512x128.size a := by
  show i ∈ ((View.whole main_v0_0).slice (win0_3.rect t)).set ↔ _
  rw [View.set_slice_whole, Rect.mem_set_unit]
  exact Iff.rfl

/-- The output blocks cover the array: row `i` of batch entry `b` is in the block of the point (b, i / 512). -/
theorem cover3 (i : S32x1024x128.Idx) :
    ∃ t : Fin cfg0.N, (cfg0.win 3).flush t = true ∧ i ∈ ((cfg0.win 3).blk t).view.set := by
  have hi0 : (i 0).val < 32 := (i 0).isLt
  have hi1 : (i 1).val < 1024 := (i 1).isLt
  have hi2 : (i 2).val < 128 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk3]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 512 ≤ (i 1).val ∧ (i 1).val < win0_3.index t (1 : Fin 3) * 512 + 512
    omega
  | ⟨2, _⟩ =>
    show win0_3.index t (2 : Fin 3) * 128 ≤ (i 2).val ∧ (i 2).val < win0_3.index t (2 : Fin 3) * 128 + 128
    omega

/-- After the run the output array is `outOf` of the argument arrays. -/
theorem final3 (c : Dev nD) :
    (dats m 0 c).arrAt 3 cfg0.N = outOf (V m c main_arg0) (V m c main_arg1) (V m c main_arg2) :=
  (dats m 0 c).arrAt_eq_of_cover 3 (outOf (V m c main_arg0) (V m c main_arg1) (V m c main_arg2))
    (fun t _ => flushed3_eq m c t) cover3

/-! ## The attention array (window 4) -/

/-- Entry `(0, r, j)` of a point's weight block sits at `(batch entry, rowAt t r, j)` of the array. -/
theorem emb4 (t : Fin cfg0.N) (u : Fin 1) (r : Fin 512) (j : Fin 1024) :
    ((cfg0.win 4).blk t).view.emb (ix3 u r j) = (ix3 (batchAt t) (rowAt t r) j : S32x1024x1024.Idx) := by
  obtain ⟨-, -, -, -, -, -, -, -, -, e0, e1, e2⟩ := idx_rel t
  have hu : u.val = 0 := by omega
  funext a
  apply Fin.ext
  match a with
  | ⟨0, _⟩ => show win0_4.index t (0 : Fin 3) * 1 + 1 * u.val = win0_3.index t (0 : Fin 3); omega
  | ⟨1, _⟩ => show win0_4.index t (1 : Fin 3) * 512 + 1 * r.val = win0_3.index t (1 : Fin 3) * 512 + r.val; omega
  | ⟨2, _⟩ => show win0_4.index t (2 : Fin 3) * 1024 + 1 * j.val = j.val; omega

/-- What point `t` writes back to the attention array is its block of `attnOf` of the argument arrays. -/
theorem flushed4_eq (c : Dev nD) (t : Fin cfg0.N) :
    (dats m 0 c).flushed 4 t
      = ((cfg0.win 4).blk t).view.read (Elt Ideal) (attnOf (V m c main_arg0) (V m c main_arg1)) := by
  rw [Value.flushed4]
  unfold out0_4
  rw [View.canon_unit_zero hz]
  simp only [View.ld_unit_zero (S := S1x512x128) hz, View.ld_unit_zero (S := S1x1024x128) hz]
  funext y
  obtain ⟨u, r, j, rfl⟩ : ∃ (u : Fin 1) (r : Fin 512) (j : Fin 1024), y = ix3 u r j := ⟨y 0, y 1, y 2, eq_ix3 y⟩
  show k0_pay3 (F := Ideal) (iblk m c 0 t) (iblk m c 1 t) (ix3 u r j)
      = attnOf (V m c main_arg0) (V m c main_arg1) (((cfg0.win 4).blk t).view.emb (ix3 u r j))
  rw [emb4 t u r j, attnOf_apply]
  refine (Block.stored_weights_apply (iblk m c 0 t) (iblk m c 1 t) u r j).trans ?_
  rw [qrow_eq m c t r, kmat_eq m c t]

/-- An index of the attention array is in point `t`'s block iff each coordinate is in the block's range on its axis. -/
theorem mem_blk4 (t : Fin cfg0.N) (i : S32x1024x1024.Idx) :
    i ∈ ((cfg0.win 4).blk t).view.set ↔ ∀ a : Fin 3, win0_4.index t a * S1x512x1024.size a ≤ (i a).val
      ∧ (i a).val < win0_4.index t a * S1x512x1024.size a + S1x512x1024.size a := by
  show i ∈ ((View.whole main_v0_1).slice (win0_4.rect t)).set ↔ _
  rw [View.set_slice_whole, Rect.mem_set_unit]
  exact Iff.rfl

/-- The weight blocks cover the attention array, by the same point. -/
theorem cover4 (i : S32x1024x1024.Idx) :
    ∃ t : Fin cfg0.N, (cfg0.win 4).flush t = true ∧ i ∈ ((cfg0.win 4).blk t).view.set := by
  have hi0 : (i 0).val < 32 := (i 0).isLt
  have hi1 : (i 1).val < 1024 := (i 1).isLt
  have hi2 : (i 2).val < 1024 := (i 2).isLt
  obtain ⟨t, ht⟩ := idx_onto ⟨(i 0).val, hi0⟩ ⟨(i 1).val / 512, by omega⟩
  obtain ⟨-, -, -, -, -, -, -, -, -, e0, e1, e2⟩ := idx_rel t
  have q0 : win0_3.index t (0 : Fin 3) = (i 0).val := congrFun ht 0
  have q1 : win0_3.index t (1 : Fin 3) = (i 1).val / 512 := congrFun ht 1
  refine ⟨t, flush0_4 t, ?_⟩
  rw [mem_blk4]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 512 ≤ (i 1).val ∧ (i 1).val < win0_4.index t (1 : Fin 3) * 512 + 512
    omega
  | ⟨2, _⟩ =>
    show win0_4.index t (2 : Fin 3) * 1024 ≤ (i 2).val ∧ (i 2).val < win0_4.index t (2 : Fin 3) * 1024 + 1024
    omega

/-- After the run the attention array is `attnOf` of the argument arrays. -/
theorem final4 (c : Dev nD) :
    (dats m 0 c).arrAt 4 cfg0.N = attnOf (V m c main_arg0) (V m c main_arg1) :=
  (dats m 0 c).arrAt_eq_of_cover 4 (attnOf (V m c main_arg0) (V m c main_arg1))
    (fun t _ => flushed4_eq m c t) cover4

/-! ## The run, read -/

/-- Every weakly fair execution of the kernel's program ends with the two result arrays at `outOf` and `attnOf` of
    the argument arrays as launched, and the arguments unchanged. -/
theorem run : θ_run defs (onTc (τ := τ) (main (F := Ideal))) ⟨m, fun _ => 0, ρ⟩ fun r => ∀ c : Dev nD,
      r.2.mem ((c : Thread nD τ).loc main_v0_0)
        = outOf (m ((c : Thread nD τ).loc main_arg0)) (m ((c : Thread nD τ).loc main_arg1)) (m ((c : Thread nD τ).loc main_arg2))
      ∧ r.2.mem ((c : Thread nD τ).loc main_v0_1)
        = attnOf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Value.run_blocks m ρ)

end Cert.Attn.Kernel

end
-- ==== Proof.Reference.lean ====
/-
  The reference computes the attention arrays.

  Its operations, read one at a time at an index: the batched inner products are `score`; the reduction over the
  keys is the fold of `max` from `-∞` (and the further `max` with `-∞` that follows it changes nothing); the
  subtraction, the exponential, the sum over the keys from `0` and the quotient are the row's softmax; the second
  batched product with the value array and the product with the query array are `mix`.
-/
import proofs.«133307_j2035814499006_2_alg».proof.Proof.Attention
import proofs.«133307_j2035814499006_2_alg».proof.Proof.Gen.ReferenceIdeal.Read
import Idealize.ShloMosaic.PureOps.Reduce

noncomputable section

namespace Cert.Attn.Reference

open Cert.ReferenceIdeal Cert.ReferenceIdeal.Gen Cert.ReferenceIdeal.Read
open Idealize.ShloMosaic Idealize.ShloMosaic.ValueIdx Cert.Lib.RowSoftmax Cert.Attn

/-- The first product at `(b, i, j)`: query row `(b, i)` against key row `(b, j)`. -/
theorem scores_apply (q k : Arr) (b : Fin 32) (i j : Fin 1024) :
    val_main_v0 (F := Ideal) q k (ix3 b i j) = score (rowOf q b i) (matOf k b) j := by
  rw [val_main_v0_apply]
  refine Finset.sum_congr rfl fun d _ => ?_
  have el : lidx_main_v0 (ix3 b i j) d = ix3 b i d :=
    funext fun a => Fin.ext (by match a with | ⟨0, _⟩ => rfl | ⟨1, _⟩ => rfl | ⟨2, _⟩ => rfl)
  have er : ridx_main_v0 (ix3 b i j) d = ix3 b j d :=
    funext fun a => Fin.ext (by match a with | ⟨0, _⟩ => rfl | ⟨1, _⟩ => rfl | ⟨2, _⟩ => rfl)
  rw [el, er]
  rfl

/-- The row maximum at `(b, i)`: the scores' maximum folded from `-∞`. -/
theorem rowMax_apply (q k : Arr) (b : Fin 32) (i : Fin 1024) :
    val_main_v3 (F := Ideal) q k (ix2 b i) = maxOf (score (rowOf q b i) (matOf k b)) := by
  have hfold : val_main_v1 (F := Ideal) q k (ix2 b i) = maxOf (score (rowOf q b i) (matOf k b)) := by
    have hR : S32x1024x1024.Reduces [2] S32x1024 := by decide
    unfold val_main_v1
    refine (Host.reduce_eq_fold_single (α := EReal) (FloatOps.maximumf (F := Ideal) (φ := .f32))
      (val_main_v0 (F := Ideal) q k) (val_main_cst (F := Ideal))
      reducesTo_S32x1024x1024_S32x1024_d2 hR h_S_ (ix2 b i)).trans ?_
    show (Finset.univ : Finset (Fin 1024)).fold max negInf
        (fun j => val_main_v0 (F := Ideal) q k (hR.lift (ix2 b i) j)) = _
    unfold maxOf
    refine congrArg (fun f => (Finset.univ : Finset (Fin 1024)).fold max negInf f) (funext fun j => ?_)
    have hl : hR.lift (ix2 b i) j = ix3 b i j :=
      funext fun a => Fin.ext (by match a with | ⟨0, _⟩ => rfl | ⟨1, _⟩ => rfl | ⟨2, _⟩ => rfl)
    rw [hl]
    exact scores_apply q k b i j
  rw [val_main_v3_apply, hfold]
  exact max_negInf_maxOf _

/-- The exponentials at `(b, i, j)`: the row's unnormalised weights. -/
theorem weights_apply (q k : Arr) (b : Fin 32) (i j : Fin 1024) :
    val_main_v7 (F := Ideal) q k (ix3 b i j) = weightOf (score (rowOf q b i) (matOf k b)) j := by
  rw [val_main_v7_apply, val_main_v6_apply, val_main_v5_apply, val_main_v4_apply]
  have hi : idx_main_v4 (idx_main_v5 (ix3 b i j)) = ix2 b i :=
    funext fun a => Fin.ext (by match a with | ⟨0, _⟩ => rfl | ⟨1, _⟩ => rfl)
  rw [hi, scores_apply, rowMax_apply]
  rfl

/-- The row sums at `(b, i)`: the sum of the row's weights. -/
theorem rowSum_apply (q k : Arr) (b : Fin 32) (i : Fin 1024) :
    val_main_v8 (F := Ideal) q k (ix2 b i) = ∑ j : Fin 1024, weightOf (score (rowOf q b i) (matOf k b)) j := by
  rw [val_main_v8_apply]
  show Ideal.ofBits .f32 0x00000000#32 + _ = _
  rw [Ideal.ofBits_zero_f32, zero_add]
  refine Finset.sum_congr rfl fun j _ => ?_
  have hi : idx_main_v8 (ix2 b i) j = ix3 b i j :=
    funext fun a => Fin.ext (by match a with | ⟨0, _⟩ => rfl | ⟨1, _⟩ => rfl | ⟨2, _⟩ => rfl)
  rw [hi]
  exact weights_apply q k b i j

/-- The quotient at `(b, i, j)`: the attention weight. -/
theorem attn_apply (q k : Arr) (b : Fin 32) (i j : Fin 1024) :
    val_main_v11 (F := Ideal) q k (ix3 b i j) = prob (rowOf q b i) (matOf k b) j := by
  rw [val_main_v11_apply, val_main_v10_apply, val_main_v9_apply]
  have hi : idx_main_v9 (idx_main_v10 (ix3 b i j)) = ix2 b i :=
    funext fun a => Fin.ext (by match a with | ⟨0, _⟩ => rfl | ⟨1, _⟩ => rfl)
  rw [hi, weights_apply, rowSum_apply]
  rfl

/-- The last product at `(b, i, d)`: the mixed value row times the query row. -/
theorem out_apply (q k v : Arr) (b : Fin 32) (i : Fin 1024) (d : Fin 128) :
    val_main_v13 (F := Ideal) q k v (ix3 b i d) = mix (rowOf q b i) (matOf k b) (matOf v b) d := by
  rw [val_main_v13_apply, val_main_v12_apply]
  show (∑ j : Fin 1024, val_main_v11 (F := Ideal) q k (lidx_main_v12 (ix3 b i d) j) * v (ridx_main_v12 (ix3 b i d) j))
      * q (ix3 b i d) = _
  unfold mix
  refine congrArg (· * q (ix3 b i d)) (Finset.sum_congr rfl fun j _ => ?_)
  have el : lidx_main_v12 (ix3 b i d) j = ix3 b i j :=
    funext fun a => Fin.ext (by match a with | ⟨0, _⟩ => rfl | ⟨1, _⟩ => rfl | ⟨2, _⟩ => rfl)
  have er : ridx_main_v12 (ix3 b i d) j = ix3 b j d :=
    funext fun a => Fin.ext (by match a with | ⟨0, _⟩ => rfl | ⟨1, _⟩ => rfl | ⟨2, _⟩ => rfl)
  rw [el, er, attn_apply]
  rfl

/-- The reference's attention result is the attention array. -/
theorem attn_eq (q k : Arr) : val_main_v11 (F := Ideal) q k = attnOf q k := by
  funext i
  obtain ⟨b, r, j, rfl⟩ : ∃ (b : Fin 32) (r j : Fin 1024), i = ix3 b r j := ⟨i 0, i 1, i 2, eq_ix3 i⟩
  exact attn_apply q k b r j

/-- The reference's output result is the output array. -/
theorem out_eq (q k v : Arr) : val_main_v13 (F := Ideal) q k v = outOf q k v := by
  funext i
  obtain ⟨b, r, d, rfl⟩ : ∃ (b : Fin 32) (r : Fin 1024) (d : Fin 128), i = ix3 b r d := ⟨i 0, i 1, i 2, eq_ix3 i⟩
  exact out_apply q k v b r d

end Cert.Attn.Reference

end
-- ==== Proof.lean ====
/-
  Dot-product attention without the 1/√d scale, its weights returned beside its output: the kernel tiled over the
  query rows against the whole-array reference.

  Both programs compute, for every batch entry and query row, the scores of the row against the 1024 keys, their
  softmax (maximum folded from -∞, exponentials of the differences, their sum, the quotients), the average of the value
  rows under those weights and its coordinatewise product with the query row. The kernel does this for 512 query rows
  at a time with the batch entry's whole key and value matrices in hand; the reference does it for all rows at once and
  takes one more maximum with -∞, which changes nothing. A row of either result depends only on its query row and its
  batch entry's keys and values, so both programs end with the same two arrays, `outOf` and `attnOf` of the arguments
  (Proof/Attention.lean). No law of arithmetic on the extended reals is needed beyond reading each operation at an
  index: the two sides are the same expression, so the finiteness of the inputs is never used.

  The kernel's arrays after its run: Proof/Block.lean (one grid point's blocks) and Proof/Kernel.lean (the 64 blocks
  tile the arrays). The reference's: Proof/Reference.lean. The kernel's idealization is the kernel's own text read at
  the extended reals, no operation replaced, so there is nothing to show of it beyond that reading.
-/
import proofs.«133307_j2035814499006_2_alg».proof.Defs
import proofs.«133307_j2035814499006_2_alg».proof.Proof.Gen.Kernel
import proofs.«133307_j2035814499006_2_alg».proof.Proof.Gen.Kernel.Frame
import proofs.«133307_j2035814499006_2_alg».proof.Proof.Gen.KernelIdeal
import proofs.«133307_j2035814499006_2_alg».proof.Proof.Gen.KernelIdeal.Frame
import proofs.«133307_j2035814499006_2_alg».proof.Proof.Gen.KernelIdeal.Value
import proofs.«133307_j2035814499006_2_alg».proof.Proof.Gen.ReferenceIdeal
import proofs.«133307_j2035814499006_2_alg».proof.Proof.Gen.ReferenceIdeal.Run
import proofs.«133307_j2035814499006_2_alg».proof.Proof.Gen.ReferenceIdeal.Read
import proofs.«133307_j2035814499006_2_alg».proof.Proof.Gen.Pre_finite_inputs
import proofs.«133307_j2035814499006_2_alg».proof.Proof.Kernel
import proofs.«133307_j2035814499006_2_alg».proof.Proof.Reference

noncomputable section

namespace Cert.Proof

open Idealize.ShloMosaic Idealize.ShloMosaic.TcCoe Idealize.SL.Sem Cert.Attn

/-- The kernel as printed runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments as they were: its run, with the two results forgotten. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Run from memories that agree on the three arguments, the kernel and the reference both end with the output array at
    `outOf` and the attention array at `attnOf` of those arguments. -/
theorem algebraic : Cert.algebraic_KernelIdeal_ReferenceIdeal := by
  intro m ρ m' ρ' _ hagree
  refine ⟨fun c => outOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => attnOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Attn.Kernel.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v13_eq, Cert.Attn.Reference.out_eq,
      (hagree c).1, (hagree c).2.1, (hagree c).2.2]
  · rw [(h c).2.1, Cert.ReferenceIdeal.Read.val_main_v11_eq, Cert.Attn.Reference.attn_eq,
      (hagree c).1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
